-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x4096 : Shape := ⟨3, ![8, 1024, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S8x4096x1024 .f32) (main_arg1 : FVec F S8x1024x4096 .f32) (main_arg2 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x4096x1024 : Shape := ⟨3, ![8, 4096, 1024]⟩
abbrev S8x1024x4096 : Shape := ⟨3, ![8, 1024, 4096]⟩
abbrev S32768x1024 : Shape := ⟨2, ![32768, 1024]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x4096x1024, .f32⟩
  | .hbm, ⟨3, _⟩ => ⟨S8x4096x1024, .f32⟩
  | .hbm, ⟨4, _⟩ => ⟨S32768x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x1024x4096 : Shape := ⟨3, ![8, 1024, 4096]⟩
abbrev S8x4096x4096 : Shape := ⟨3, ![8, 4096, 4096]⟩
abbrev S_ : Shape := ⟨0, ![]⟩
abbrev S32768x1024 : Shape := ⟨2, ![32768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x4096x1024, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S8x4096x1024, .f32⟩
  | .hbm, ⟨8, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.LibTileSum.lean ====
/-
  A sum over `Q * w` consecutive positions taken tile by tile: `Q` tiles of `w` positions each, position
  `b * w + l` being lane `l` of tile `b`. Only commutativity and associativity of the addition are used, so the
  statement holds in every additive commutative monoid.
-/
import Mathlib.Algebra.BigOperators.Fin
import Mathlib.Logic.Equiv.Fin.Basic
import Mathlib.Tactic

namespace Cert.TileSum

variable {M : Type*} [AddCommMonoid M]

/-- Position `b * w + l` of `Q * w`. -/
def pos {Q w : ℕ} (b : Fin Q) (l : Fin w) : Fin (Q * w) :=
  ⟨b.val * w + l.val, by
    have hb := b.isLt; have hl := l.isLt
    calc b.val * w + l.val < b.val * w + w := by omega
      _ = (b.val + 1) * w := by ring
      _ ≤ Q * w := Nat.mul_le_mul_right w hb⟩

/-- The sum over all positions is the sum over the tiles of the sums over their lanes. -/
theorem sum_tiles {Q w : ℕ} (g : Fin (Q * w) → M) :
    ∑ n, g n = ∑ b : Fin Q, ∑ l : Fin w, g (pos b l) := by
  rw [← Fintype.sum_prod_type' (fun b l => g (pos b l))]
  refine (Fintype.sum_equiv finProdFinEquiv _ _ fun p => ?_).symm
  congr 1
  apply Fin.ext
  simp only [finProdFinEquiv_apply_val, pos]
  ring

end Cert.TileSum
-- ==== Proof.Spec.lean ====
/-
  The grouped feed-forward layer, as one function of its three argument arrays.

  There are 8 experts. Expert `e` owns 4096 rows of width 1024 (`x[e]`), a first weight matrix `wi[e]` of
  1024 × 4096 and a second one `wo[e]` of 4096 × 1024. Row `r` of expert `e` is sent to

      out[e, r, d] = ∑_{f < 4096} max(∑_{k < 1024} x[e, r, k] · wi[e, k, f], 0) · wo[e, f, d]

  over the extended reals. The 4096 hidden units can be summed 512 at a time: the sum over all of them is the
  sum over the 8 blocks of 512 of each block's own sum. That regrouping uses only commutativity and
  associativity of the addition, so it holds at the infinities too.
-/
import Idealize.ShloMosaic.PureOps.Ideal
import Idealize.ShloMosaic.Lib.ValueIdx
import proofs.«159526_j69965017252292_1_alg».proof.Proof.LibTileSum

noncomputable section

open scoped BigOperators

namespace Cert.Spec

open Idealize.ShloMosaic Idealize.ShloMosaic.ValueIdx

/-- An array of shape [8, 4096, 1024] of extended reals: the rows `x`, the second weights `wo`, the result. -/
abbrev Rows : Type := (⟨3, ![8, 4096, 1024]⟩ : Shape).Idx → EReal
/-- An array of shape [8, 1024, 4096] of extended reals: the first weights `wi`. -/
abbrev Cols : Type := (⟨3, ![8, 1024, 4096]⟩ : Shape).Idx → EReal

/-- `max v 0`, the zero written as the f32 word `+0.0` that both programs print. -/
def relu (v : EReal) : EReal := max v (Ideal.ofBits .f32 0x00000000#32)

/-- Hidden unit `f` of expert `e` on its row `r`: `max(∑ₖ x[e, r, k] · wi[e, k, f], 0)`. -/
def hidden (x : Rows) (wi : Cols) (e : Fin 8) (r : Fin 4096) (f : Fin 4096) : EReal :=
  relu (∑ k : Fin 1024, x (ix3 e r k) * wi (ix3 e k f))

/-- The layer at expert `e`, row `r`, output feature `d`. -/
def ffnAt (x : Rows) (wi : Cols) (wo : Rows) (e : Fin 8) (r : Fin 4096) (d : Fin 1024) : EReal :=
  ∑ f : Fin 4096, hidden x wi e r f * wo (ix3 e f d)

/-- The layer as an array of shape [8, 4096, 1024]. -/
def ffn (x : Rows) (wi : Cols) (wo : Rows) : Rows := fun i => ffnAt x wi wo (i 0) (i 1) (i 2)

/-- Row number `t · 1024 + p` of an expert: row `p` of its row tile `t`. -/
def row (t : Fin 4) (p : Fin 1024) : Fin 4096 := ⟨t.val * 1024 + p.val, by omega⟩

/-- Hidden unit number `b · 512 + j`: unit `j` of block `b`. -/
def unit (b : Fin 8) (j : Fin 512) : Fin 4096 := ⟨b.val * 512 + j.val, by omega⟩

/-- What block `b` of 512 hidden units contributes to the output at `(e, r, d)`. -/
def blockTerm (x : Rows) (wi : Cols) (wo : Rows) (e : Fin 8) (r : Fin 4096) (d : Fin 1024) (b : Fin 8) : EReal :=
  ∑ j : Fin 512, hidden x wi e r (unit b j) * wo (ix3 e (unit b j) d)

/-- The layer is the sum of its 8 blocks' contributions. -/
theorem ffnAt_eq_blocks (x : Rows) (wi : Cols) (wo : Rows) (e : Fin 8) (r : Fin 4096) (d : Fin 1024) :
    ffnAt x wi wo e r d = ∑ b : Fin 8, blockTerm x wi wo e r d b :=
  Cert.TileSum.sum_tiles (Q := 8) (w := 512) (fun f : Fin 4096 => hidden x wi e r f * wo (ix3 e f d))

end Cert.Spec

end
-- ==== Proof.Pieces.lean ====
/-
  What one grid point leaves behind, in terms of the body's arithmetic.

  The kernel keeps a 1024 × 1024 accumulator across the 8 hidden-block steps of one (expert, row tile) pair.
  At the first step it zeroes the accumulator and then adds that step's product into it; at every later step it
  adds the step's product to what the step before left; at the last step it also copies the accumulator into the
  output block. Each store covers its whole buffer, so what a buffer holds afterwards is the last store's value,
  and a load of a buffer just stored reads that store's value back.
-/
import proofs.«159526_j69965017252292_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the accumulator that held `acc` ends at `acc` plus the step's product. -/
theorem scratch_mid (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x1024x512 .f32) (x2 : Vec F S1x512x1024 .f32) (acc : Vec F S1024x1024 .f32) :
    sout0_B_0 c i arg3 harg3 arg4 harg4 arg5 harg5 arg6 harg6 arg7 harg7 hc0 hc1 x0 x1 x2 acc = k0_pay2 x0 x1 x2 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  rw [View.canon_unit_zero hz2]
  simp only [View.readAt_eq_ld, harg3.read_unread, harg4.read_unread, harg5.read_unread, harg7.read_unread,
    View.ld_unit_zero (S := S1x1024x1024) hz3, View.ld_unit_zero (S := S1x1024x512) hz3, View.ld_unit_zero (S := S1x512x1024) hz3,
    View.ld_unit_zero (S := S1024x1024) hz2]

/-- The first step: the accumulator is zeroed, read back, and ends at zero plus the step's product. -/
theorem scratch_first (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x512 .f32) (x2 : Vec F S1x512x1024 .f32) :
    sout0_A_0 c i arg3 harg3 arg4 harg4 arg5 harg5 arg6 harg6 arg7 harg7 hc0 hc1 x0 x1 x2 = k0_pay2 x0 x1 x2 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread,
    View.ld_unit_zero (S := S1x1024x1024) hz3, View.ld_unit_zero (S := S1x1024x512) hz3, View.ld_unit_zero (S := S1x512x1024) hz3,
    View.ld_unit_zero (S := S1024x1024) hz2]

/-- The last step: the accumulator that held `acc` ends at `acc` plus the step's product … -/
theorem scratch_last (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x512 .f32) (x2 : Vec F S1x512x1024 .f32) (acc : Vec F S1024x1024 .f32) :
    sout0_C_0 c i arg3 harg3 arg4 harg4 arg5 harg5 arg6 harg6 arg7 harg7 hc0 hc1 x0 x1 x2 acc = k0_pay2 x0 x1 x2 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero hz2]
  simp only [View.readAt_eq_ld, harg3.read_unread, harg4.read_unread, harg5.read_unread, harg7.read_unread,
    View.ld_unit_zero (S := S1x1024x1024) hz3, View.ld_unit_zero (S := S1x1024x512) hz3, View.ld_unit_zero (S := S1x512x1024) hz3,
    View.ld_unit_zero (S := S1024x1024) hz2]

/-- … and the output block is that final accumulator, given its leading unit axis. -/
theorem out_last (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x512x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x512 .f32) (x2 : Vec F S1x512x1024 .f32) (acc : Vec F S1024x1024 .f32) :
    out0_C_3 c i arg3 harg3 arg4 harg4 arg5 harg5 arg6 harg6 arg7 harg7 hc0 hc1 x0 x1 x2 acc = k0_pay3 (k0_pay2 x0 x1 x2 acc) := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero (S := S1x1024x1024) hz3, View.readCov_unit_zero (S := S1024x1024) _ hz2]
  simp only [View.readAt_eq_ld, harg3.read_unread, harg4.read_unread, harg5.read_unread, harg7.read_unread,
    View.ld_unit_zero (S := S1x1024x1024) hz3, View.ld_unit_zero (S := S1x1024x512) hz3, View.ld_unit_zero (S := S1x512x1024) hz3,
    View.ld_unit_zero (S := S1024x1024) hz2]

end Cert.KernelIdeal.Pieces

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.Payload.lean ====
/-
  The body's arithmetic read at one entry, over the extended reals.

  One step takes a block `X` of 1024 rows (width 1024), a block `W` of 512 columns of the first weights
  (1024 × 512) and the matching block `U` of 512 rows of the second weights (512 × 1024), and adds to the
  accumulator's entry `(p, q)` the number

      ∑_{j < 512} max(∑_{k < 1024} X[p, k] · W[k, j], 0) · U[j, q].

  A change of float format is the identity on the extended reals, a matrix product into a zero accumulator is
  the plain sum, and the blocks' leading unit axis only renames indices.
-/
import proofs.«159526_j69965017252292_1_alg».proof.Proof.Gen.KernelIdeal.Skeleton
import proofs.«159526_j69965017252292_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first (and only) position of a unit axis. -/
abbrev u0 : Fin 1 := ⟨0, Nat.one_pos⟩

/-- A [1, a, b] block viewed as an [a, b] matrix: entry `(i, j)` is the block's `(0, i, j)`. -/
theorem dropUnit_apply {α : Type} {n0 n1 : Nat} (v : (⟨3, ![1, n0, n1]⟩ : Shape).Idx → α)
    (h : (⟨3, ![1, n0, n1]⟩ : Shape).ShapeCasts ⟨2, ![n0, n1]⟩) (a : Fin n0) (b : Fin n1) :
    shapeCast ⟨2, ![n0, n1]⟩ v h (ix2 a b) = v (ix3 u0 a b) := by
  refine (shapeCast_dropUnit_apply ![n0, n1] v h (ix2 a b)).trans (congrArg v ?_)
  funext d
  match d with
  | ⟨0, _⟩ => rfl
  | ⟨1, _⟩ => rfl
  | ⟨2, _⟩ => rfl

/-- An [a, b] matrix viewed as a [1, a, b] block: the block's `(0, i, j)` is entry `(i, j)`. -/
theorem addUnit_apply {α : Type} {n0 n1 : Nat} (v : (⟨2, ![n0, n1]⟩ : Shape).Idx → α)
    (h : (⟨2, ![n0, n1]⟩ : Shape).ShapeCasts ⟨3, ![1, n0, n1]⟩) (z : Fin 1) (a : Fin n0) (b : Fin n1) :
    shapeCast ⟨3, ![1, n0, n1]⟩ v h (ix3 z a b) = v (ix2 a b) := by
  refine (shapeCast_addUnit_apply ![n0, n1] v h (ix3 z a b)).trans (congrArg v ?_)
  funext d
  match d with
  | ⟨0, _⟩ => rfl
  | ⟨1, _⟩ => rfl

/-- The two products are plain ones: rows × contraction times contraction × columns. -/
theorem dot_first : dot_S1024x1024_S1024x512_S1024x512_1_0_0_1_n_n = DotDims.plain 1024 1024 512 := rfl
theorem dot_second : dot_S1024x512_S512x1024_S1024x1024_1_0_0_1_n_n = DotDims.plain 1024 512 1024 := rfl

/-- What one step adds to the accumulator's entry `(p, q)`, from the step's three blocks. -/
def stepTerm (x0 : Vec Ideal S1x1024x1024 .f32) (x1 : Vec Ideal S1x1024x512 .f32) (x2 : Vec Ideal S1x512x1024 .f32)
    (p q : Fin 1024) : EReal :=
  ∑ j : Fin 512, max (∑ k : Fin 1024, x0 (ix3 u0 p k) * x1 (ix3 u0 k j)) (Ideal.ofBits .f32 0x00000000#32) * x2 (ix3 u0 j q)

/-- The accumulating store's value at `(p, q)`: the accumulator's entry plus the step's term. -/
theorem pay2_apply (x0 : Vec Ideal S1x1024x1024 .f32) (x1 : Vec Ideal S1x1024x512 .f32) (x2 : Vec Ideal S1x512x1024 .f32)
    (acc : Vec Ideal S1024x1024 .f32) (p q : Fin 1024) :
    k0_pay2 (F := Ideal) x0 x1 x2 acc (ix2 p q) = acc (ix2 p q) + stepTerm x0 x1 x2 p q := by
  unfold k0_pay2 stepTerm
  rw [shapeCast_self, dot_first, dot_second]
  show acc (ix2 p q) + matmul (DotDims.plain 1024 512 1024) none _ _ (constant (F := Ideal) ⟨2, ![1024, 1024]⟩ .f32 0x00000000#32) (ix2 p q) = _
  rw [Cert.PlainMatmul.matmul_zero_apply]
  refine congrArg (acc (ix2 p q) + ·) (Finset.sum_congr rfl fun j _ => ?_)
  show max (matmul (DotDims.plain 1024 1024 512) none _ _ (constant (F := Ideal) ⟨2, ![1024, 512]⟩ .f32 0x00000000#32) (ix2 p j)) (Ideal.ofBits .f32 0x00000000#32)
      * shapeCast S512x1024 x2 shapeCasts_S1x512x1024_S512x1024 (ix2 j q) = _
  rw [Cert.PlainMatmul.matmul_zero_apply, dropUnit_apply]
  refine congrArg (fun s => max s (Ideal.ofBits .f32 0x00000000#32) * x2 (ix3 u0 j q)) (Finset.sum_congr rfl fun k _ => ?_)
  show shapeCast S1024x1024 x0 shapeCasts_S1x1024x1024_S1024x1024 (ix2 p k) * shapeCast S1024x512 x1 shapeCasts_S1x1024x512_S1024x512 (ix2 k j) = _
  rw [dropUnit_apply, dropUnit_apply]

/-- The zeroing store's value at any entry: the f32 word `+0.0`. -/
theorem pay1_apply (i : S1024x1024.Idx) : k0_pay1 (F := Ideal) i = Ideal.ofBits .f32 0x00000000#32 := by
  unfold k0_pay1
  rw [shapeCast_self]
  rfl

/-- The copy to the output block at `(0, p, q)`: the accumulator's entry `(p, q)`. -/
theorem pay3_apply (v : Vec Ideal S1024x1024 .f32) (z : Fin 1) (p q : Fin 1024) :
    k0_pay3 (F := Ideal) v (ix3 z p q) = v (ix2 p q) := by
  unfold k0_pay3
  exact addUnit_apply v shapeCasts_S1024x1024_S1x1024x1024 z p q

end Cert.KernelIdeal.Payload

end
-- ==== Proof.Blocks.lean ====
/-
  Which entries of the three arrays a grid point works on.

  The grid has 8 × 4 × 8 points; point number `t = e · 32 + s · 8 + b` is expert `e`, row tile `s` (1024 rows),
  hidden block `b` (512 hidden units). Its three input blocks are rows `s · 1024 …` of `x[e]`, columns
  `b · 512 …` of `wi[e]` and rows `b · 512 …` of `wo[e]`; so what the step adds to the accumulator's entry
  `(p, q)` is block `b`'s contribution to the layer's output at expert `e`, row `s · 1024 + p`, feature `q`.
-/
import proofs.«159526_j69965017252292_1_alg».proof.Proof.Gen.KernelIdeal.Frame
import proofs.«159526_j69965017252292_1_alg».proof.Proof.Spec
import proofs.«159526_j69965017252292_1_alg».proof.Proof.Payload

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Cert.Spec Cert.KernelIdeal.Payload

variable (m : (ℓ : Loc nD τ sig) → Buf (Elt Ideal) ℓ)

/-- The four index maps at point `t`, decided once over the 256 points. -/
theorem idx_facts : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = t.val % 8 ∧ win0_2.index t (2 : Fin 3) = 0
    ∧ win0_3.index t (0 : Fin 3) = t.val / 32 ∧ win0_3.index t (1 : Fin 3) = t.val / 8 % 4 ∧ win0_3.index t (2 : Fin 3) = 0 :=
  (by decide +kernel : ∀ t : Fin grid0.N, _)

/-- The block of `x`: row `p` of the block is row `s · 1024 + p` of expert `e`. -/
theorem rows_block (c : Dev nD) (t : Fin cfg0.N) (e : Fin 8) (s : Fin 4) (b : Fin 8)
    (ht : t.val = e.val * 32 + s.val * 8 + b.val) (p k : Fin 1024) :
    (iblk m c 0 t : Vec Ideal S1x1024x1024 .f32) (ix3 u0 p k) = m ((c.tc : Thread nD τ).loc main_arg0) (ix3 e (row s p) k) := by
  obtain ⟨a0, a1, a2, -⟩ := idx_facts t
  have he := e.isLt; have hs := s.isLt; have hb := b.isLt
  unfold iblk
  rw [View.read_apply]
  show m ((c.tc : Thread nD τ).loc main_arg0) _ = m ((c.tc : Thread nD τ).loc main_arg0) _
  congr 1
  funext a
  apply Fin.ext
  match a with
  | ⟨0, _⟩ => show win0_0.index t (0 : Fin 3) * 1 + 1 * 0 = e.val; rw [a0]; omega
  | ⟨1, _⟩ => show win0_0.index t (1 : Fin 3) * 1024 + 1 * p.val = s.val * 1024 + p.val; rw [a1]; omega
  | ⟨2, _⟩ => show win0_0.index t (2 : Fin 3) * 1024 + 1 * k.val = k.val; rw [a2]; omega

/-- The block of `wi`: column `j` of the block is hidden unit `b · 512 + j` of expert `e`. -/
theorem cols_block (c : Dev nD) (t : Fin cfg0.N) (e : Fin 8) (s : Fin 4) (b : Fin 8)
    (ht : t.val = e.val * 32 + s.val * 8 + b.val) (k : Fin 1024) (j : Fin 512) :
    (iblk m c 1 t : Vec Ideal S1x1024x512 .f32) (ix3 u0 k j) = m ((c.tc : Thread nD τ).loc main_arg1) (ix3 e k (unit b j)) := by
  obtain ⟨-, -, -, a0, a1, a2, -⟩ := idx_facts t
  have he := e.isLt; have hs := s.isLt; have hb := b.isLt
  unfold iblk
  rw [View.read_apply]
  show m ((c.tc : Thread nD τ).loc main_arg1) _ = m ((c.tc : Thread nD τ).loc main_arg1) _
  congr 1
  funext a
  apply Fin.ext
  match a with
  | ⟨0, _⟩ => show win0_1.index t (0 : Fin 3) * 1 + 1 * 0 = e.val; rw [a0]; omega
  | ⟨1, _⟩ => show win0_1.index t (1 : Fin 3) * 1024 + 1 * k.val = k.val; rw [a1]; omega
  | ⟨2, _⟩ => show win0_1.index t (2 : Fin 3) * 512 + 1 * j.val = b.val * 512 + j.val; rw [a2]; omega

/-- The block of `wo`: row `j` of the block is hidden unit `b · 512 + j` of expert `e`. -/
theorem outw_block (c : Dev nD) (t : Fin cfg0.N) (e : Fin 8) (s : Fin 4) (b : Fin 8)
    (ht : t.val = e.val * 32 + s.val * 8 + b.val) (j : Fin 512) (q : Fin 1024) :
    (iblk m c 2 t : Vec Ideal S1x512x1024 .f32) (ix3 u0 j q) = m ((c.tc : Thread nD τ).loc main_arg2) (ix3 e (unit b j) q) := by
  obtain ⟨-, -, -, -, -, -, a0, a1, a2, -⟩ := idx_facts t
  have he := e.isLt; have hs := s.isLt; have hb := b.isLt
  unfold iblk
  rw [View.read_apply]
  show m ((c.tc : Thread nD τ).loc main_arg2) _ = m ((c.tc : Thread nD τ).loc main_arg2) _
  congr 1
  funext a
  apply Fin.ext
  match a with
  | ⟨0, _⟩ => show win0_2.index t (0 : Fin 3) * 1 + 1 * 0 = e.val; rw [a0]; omega
  | ⟨1, _⟩ => show win0_2.index t (1 : Fin 3) * 512 + 1 * j.val = b.val * 512 + j.val; rw [a1]; omega
  | ⟨2, _⟩ => show win0_2.index t (2 : Fin 3) * 1024 + 1 * q.val = q.val; rw [a2]; omega

/-- A step's term, from blocks that are those parts of the arrays, is the hidden block's contribution. -/
theorem stepTerm_eq (x0 : Vec Ideal S1x1024x1024 .f32) (x1 : Vec Ideal S1x1024x512 .f32) (x2 : Vec Ideal S1x512x1024 .f32)
    (x : Rows) (wi : Cols) (wo : Rows) (e : Fin 8) (r : Fin 4096) (b : Fin 8) (p q : Fin 1024)
    (h0 : ∀ k, x0 (ix3 u0 p k) = x (ix3 e r k)) (h1 : ∀ k j, x1 (ix3 u0 k j) = wi (ix3 e k (unit b j)))
    (h2 : ∀ j, x2 (ix3 u0 j q) = wo (ix3 e (unit b j) q)) :
    stepTerm x0 x1 x2 p q = blockTerm x wi wo e r q b := by
  unfold stepTerm blockTerm Cert.Spec.hidden relu
  refine Finset.sum_congr rfl fun j _ => ?_
  rw [h2 j]
  refine congrArg (fun v => max v (Ideal.ofBits .f32 0x00000000#32) * wo (ix3 e (unit b j) q)) (Finset.sum_congr rfl fun k _ => ?_)
  rw [h0 k, h1 k j]

/-- What point `t = e · 32 + s · 8 + b` adds to the accumulator's entry `(p, q)`. -/
theorem step_blockTerm (c : Dev nD) (t : Fin cfg0.N) (e : Fin 8) (s : Fin 4) (b : Fin 8)
    (ht : t.val = e.val * 32 + s.val * 8 + b.val) (p q : Fin 1024) :
    stepTerm (iblk m c 0 t) (iblk m c 1 t) (iblk m c 2 t) p q
      = blockTerm (m ((c.tc : Thread nD τ).loc main_arg0)) (m ((c.tc : Thread nD τ).loc main_arg1))
          (m ((c.tc : Thread nD τ).loc main_arg2)) e (row s p) q b :=
  stepTerm_eq (iblk m c 0 t) (iblk m c 1 t) (iblk m c 2 t) (m ((c.tc : Thread nD τ).loc main_arg0))
    (m ((c.tc : Thread nD τ).loc main_arg1)) (m ((c.tc : Thread nD τ).loc main_arg2)) e (row s p) b p q
    (fun k => rows_block m c t e s b ht p k) (fun k j => cols_block m c t e s b ht k j)
    (fun j => outw_block m c t e s b ht j q)

end Cert.KernelIdeal.Blocks

end
-- ==== Proof.LibGridSum.lean ====
/-
  A running sum kept over the points of a grid.

  A kernel that visits the points `0, 1, …, N-1` of a grid in order and keeps one accumulator — a starting value `z` plus
  the first point's term after the first point, the previous value plus the point's term after every later one — holds,
  after point `n`, the value `z` plus the sum of the terms of the points `0 … n`.  Only associativity of the addition is
  used, so the statement holds in every additive commutative monoid; the extended reals, infinities included, are one.
-/
import Mathlib.Algebra.BigOperators.Fin

namespace Cert.GridSum

variable {M : Type*} [AddCommMonoid M]

/-- The accumulator after point `n`: `z + f 0` after the first point, the previous value plus `f n` after point `n`. -/
def running {N : ℕ} (z : M) (f : Fin N → M) : (n : ℕ) → n < N → M
  | 0, h => z + f ⟨0, h⟩
  | n + 1, h => running z f n (Nat.lt_of_succ_lt h) + f ⟨n + 1, h⟩

/-- After point `n` the accumulator is the starting value plus the sum of the terms of the points up to `n`. -/
theorem running_eq_sum {N : ℕ} (z : M) (f : Fin N → M) :
    ∀ (n : ℕ) (h : n < N), running z f n h = z + ∑ b : Fin (n + 1), f ⟨b.val, lt_of_lt_of_le b.isLt h⟩
  | 0, h => by
    rw [running, Fin.sum_univ_one]
    rfl
  | n + 1, h => by
    rw [running, running_eq_sum z f n, add_assoc, Fin.sum_univ_castSucc (n := n + 1)]
    rfl

/-- After the last point it is the starting value plus the sum over the whole grid. -/
theorem running_last {N : ℕ} (z : M) (f : Fin (N + 1) → M) :
    running z f N (Nat.lt_succ_self N) = z + ∑ b, f b :=
  running_eq_sum z f N _

end Cert.GridSum
-- ==== Proof.Accum.lean ====
/-
  The accumulator over the 8 steps of one (expert, row tile) pair.

  The 8 points `e · 32 + s · 8 + b`, `b = 0 … 7`, are visited in order. The first zeroes the accumulator and adds
  block 0's contribution, each later one adds its block's contribution to what the point before left. So after
  point `b` the accumulator's entry `(p, q)` is zero plus the contributions of blocks `0 … b`, and after the last
  point it is the layer's output at expert `e`, row `s · 1024 + p`, feature `q`: the sum over all 4096 hidden
  units, taken 512 at a time. Only associativity and commutativity of the addition are used.
-/
import proofs.«159526_j69965017252292_1_alg».proof.Proof.Gen.KernelIdeal.Frame
import proofs.«159526_j69965017252292_1_alg».proof.Proof.Pieces
import proofs.«159526_j69965017252292_1_alg».proof.Proof.Payload
import proofs.«159526_j69965017252292_1_alg».proof.Proof.Blocks
import proofs.«159526_j69965017252292_1_alg».proof.Proof.LibGridSum

noncomputable section

open scoped BigOperators

namespace Cert.KernelIdeal.Accum

open Cert.KernelIdeal Cert.KernelIdeal.Gen Idealize.ShloMosaic Idealize.ShloMosaic.TcCoe Idealize.ShloMosaic.ValueIdx Idealize.SL.Sem
open Cert.Spec Cert.KernelIdeal.Payload Cert.KernelIdeal.Blocks

variable (m : (ℓ : Loc nD τ sig) → Buf (Elt Ideal) ℓ)

/-- At a point that starts a run of 8 the accumulator ends at the zero block plus the step's product. -/
theorem scratch_at_first (c : Dev nD) (t : Fin cfg0.N) (h0 : t.val % 8 = 0) :
    (outsAt0 m c t.val t.isLt).2 = k0_pay2 (F := Ideal) (iblk m c 0 t) (iblk m c 1 t) (iblk m c 2 t) (k0_pay1 (F := Ideal)) := by
  have h1 : ¬t.val % 8 = 7 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk m c 0 t) (iblk m c 1 t) (iblk m c 2 t)

/-- At every other point it ends at what the point before left plus the step's product. -/
theorem scratch_at_next (c : Dev nD) (t : Fin cfg0.N) (h0 : ¬t.val % 8 = 0) :
    (outsAt0 m c t.val t.isLt).2 = k0_pay2 (F := Ideal) (iblk m c 0 t) (iblk m c 1 t) (iblk m c 2 t) (outsAt0 m c (t.val - 1) (Nat.lt_of_le_of_lt (Nat.sub_le _ _) t.isLt)).2 := by
  by_cases h1 : t.val % 8 = 7
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_mid (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last point of a run the output block is the accumulator, given its leading unit axis. -/
theorem out_at_last (c : Dev nD) (t : Fin cfg0.N) (h0 : ¬t.val % 8 = 0) (h1 : t.val % 8 = 7) :
    (outsAt0 m c t.val t.isLt).1 = k0_pay3 (F := Ideal) (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (congrArg (k0_pay3 (F := Ideal)) (Pieces.scratch_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm)

/-- Entry `(p, q)` after the first point of a run: zero plus the step's term. -/
theorem entry_first (c : Dev nD) (t : Fin cfg0.N) (h0 : t.val % 8 = 0) (p q : Fin 1024) :
    (outsAt0 m c t.val t.isLt).2 (ix2 p q)
      = Ideal.ofBits .f32 0x00000000#32 + stepTerm (iblk m c 0 t) (iblk m c 1 t) (iblk m c 2 t) p q := by
  rw [scratch_at_first m c t h0]
  exact (pay2_apply (iblk m c 0 t) (iblk m c 1 t) (iblk m c 2 t) (k0_pay1 (F := Ideal)) p q).trans
    (congrArg (· + stepTerm (iblk m c 0 t) (iblk m c 1 t) (iblk m c 2 t) p q) (pay1_apply (ix2 p q)))

/-- Entry `(p, q)` after any other point: the entry the point before left plus the step's term. -/
theorem entry_next (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q) + stepTerm (iblk m c 0 t) (iblk m c 1 t) (iblk m c 2 t) p q := by
  rw [scratch_at_next m c t h0]
  exact pay2_apply (iblk m c 0 t) (iblk m c 1 t) (iblk m c 2 t) (outsAt0 m c (t.val - 1) (Nat.lt_of_le_of_lt (Nat.sub_le _ _) t.isLt)).2 p q

/-- After point `b` of the run of expert `e` and row tile `s`, entry `(p, q)` is the running sum of the blocks'
    contributions to the output at `(e, s · 1024 + p, q)`, started from zero. -/
theorem entry_running (c : Dev nD) (e : Fin 8) (s : Fin 4) (p q : Fin 1024) :
    ∀ (b : ℕ) (hb : b < 8) (h : e.val * 32 + s.val * 8 + b < cfg0.N),
      (outsAt0 m c (e.val * 32 + s.val * 8 + b) h).2 (ix2 p q)
        = Cert.GridSum.running (Ideal.ofBits .f32 0x00000000#32)
            (fun b' : Fin 8 => blockTerm (m ((c.tc : Thread nD τ).loc main_arg0)) (m ((c.tc : Thread nD τ).loc main_arg1)) (m ((c.tc : Thread nD τ).loc main_arg2)) e (row s p) q b') b hb
  | 0, hb, h => by
    refine (entry_first m c ⟨_, h⟩ (by show (e.val * 32 + s.val * 8 + 0) % 8 = 0; omega) p q).trans ?_
    rw [step_blockTerm m c ⟨_, h⟩ e s ⟨0, hb⟩ rfl p q]
    rfl
  | b + 1, hb, h => by
    have h0 : ¬(⟨e.val * 32 + s.val * 8 + (b + 1), h⟩ : Fin cfg0.N).val % 8 = 0 := by
      show ¬(e.val * 32 + s.val * 8 + (b + 1)) % 8 = 0
      omega
    refine (entry_next m c ⟨_, h⟩ h0 p q).trans ?_
    rw [step_blockTerm m c ⟨_, h⟩ e s ⟨b + 1, hb⟩ rfl p q]
    show (outsAt0 m c (e.val * 32 + s.val * 8 + b) (Nat.lt_of_succ_lt h)).2 (ix2 p q) + _ = _
    rw [entry_running c e s p q b (Nat.lt_of_succ_lt hb) (Nat.lt_of_succ_lt h)]
    rfl

/-- After the last point of the run, entry `(p, q)` is the layer's output at `(e, s · 1024 + p, q)`. -/
theorem entry_last (c : Dev nD) (e : Fin 8) (s : Fin 4) (p q : Fin 1024) (h : e.val * 32 + s.val * 8 + 7 < cfg0.N) :
    (outsAt0 m c (e.val * 32 + s.val * 8 + 7) h).2 (ix2 p q)
      = ffnAt (m ((c.tc : Thread nD τ).loc main_arg0)) (m ((c.tc : Thread nD τ).loc main_arg1)) (m ((c.tc : Thread nD τ).loc main_arg2)) e (row s p) q := by
  rw [entry_running m c e s p q 7 (by omega) h, ffnAt_eq_blocks]
  exact (Cert.GridSum.running_last (N := 7) _ _).trans (by rw [Ideal.ofBits_zero_f32, zero_add])

end Cert.KernelIdeal.Accum

end
-- ==== Proof.Result.lean ====
/-
  The kernel's result array.

  The output window is written back at the last point of every run of 8, and the 32 blocks written back tile the
  [8, 4096, 1024] array: entry `(e, r, d)` lies in the block of expert `e` and row tile `r / 1024`. Each block
  written back is that block of the layer's output array, so after the region the whole array is the layer's
  output; the line after the region reshapes it to 32768 rows.
-/
import proofs.«159526_j69965017252292_1_alg».proof.Proof.Gen.KernelIdeal.Frame
import proofs.«159526_j69965017252292_1_alg».proof.Proof.Accum
import Idealize.ShloMosaic.Lib.Pipeline.Value
import Idealize.ShloMosaic.Lib.StableHlo.Run
import Idealize.ShloMosaic.Lib.Tactic

noncomputable section

open scoped BigOperators

namespace Cert.KernelIdeal.Result

open Cert.KernelIdeal Cert.KernelIdeal.Gen Idealize.ShloMosaic Idealize.ShloMosaic.TcCoe Idealize.ShloMosaic.ValueIdx Idealize.SL.Sem
open Idealize.ShloMosaic.Pipeline (Dat)
open Cert.Spec Cert.KernelIdeal.Payload Cert.KernelIdeal.Blocks Cert.KernelIdeal.Accum

variable (m : (ℓ : Loc nD τ sig) → Buf (Elt Ideal) ℓ) (ρ : Dev nD → PrngReg)

/-- What the last point of a run writes back is its block of the layer's output array. -/
theorem flushed_eq (c : Dev nD) (t : Fin cfg0.N) (hf : (cfg0.win 3).flush t = true) :
    (dats m 0 c).flushed 3 t = ((cfg0.win 3).blk t).view.read (Elt Ideal) (ffn (m ((c.tc : Thread nD τ).loc main_arg0)) (m ((c.tc : Thread nD τ).loc main_arg1)) (m ((c.tc : Thread nD τ).loc main_arg2))) := by
  have h7 : t.val % 8 = 7 := (flush0_3 t).mp hf
  have hN : t.val < 256 := lt_of_lt_of_eq t.isLt N_0
  obtain ⟨-, -, -, -, -, -, -, -, -, a0, a1, a2⟩ := idx_facts t
  show (cfg0.win 3).cut (grid0.coords t) ((dats m 0 c).after 3 t) = _
  rw [after0_3, out_at_last m c t (by omega) h7]
  funext y
  obtain ⟨z, p, q, rfl⟩ : ∃ (z : Fin 1) (p q : Fin 1024), y = ix3 z p q := ⟨y 0, y 1, y 2, eq_ix3 y⟩
  rw [View.read_apply]
  show k0_pay3 (F := Ideal) (outsAt0 m c t.val t.isLt).2 (ix3 z p q) = _
  rw [pay3_apply]
  have hz : z.val = 0 := by have := z.isLt; omega
  have he : t.val / 32 < 8 := by omega
  have hs : t.val / 8 % 4 < 4 := by omega
  have ht : t.val = (⟨t.val / 32, he⟩ : Fin 8).val * 32 + (⟨t.val / 8 % 4, hs⟩ : Fin 4).val * 8 + 7 := by
    show t.val = t.val / 32 * 32 + t.val / 8 % 4 * 8 + 7
    omega
  have hemb : ((cfg0.win 3).blk t).view.emb (ix3 z p q) = ix3 (⟨t.val / 32, he⟩ : Fin 8) (row ⟨t.val / 8 % 4, hs⟩ p) q := by
    funext a
    apply Fin.ext
    match a with
    | ⟨0, _⟩ => show win0_3.index t (0 : Fin 3) * 1 + 1 * z.val = t.val / 32; rw [a0, hz]; omega
    | ⟨1, _⟩ => show win0_3.index t (1 : Fin 3) * 1024 + 1 * p.val = t.val / 8 % 4 * 1024 + p.val; rw [a1]; omega
    | ⟨2, _⟩ => show win0_3.index t (2 : Fin 3) * 1024 + 1 * q.val = q.val; rw [a2]; omega
  rw [hemb]
  show _ = ffnAt (m ((c.tc : Thread nD τ).loc main_arg0)) (m ((c.tc : Thread nD τ).loc main_arg1)) (m ((c.tc : Thread nD τ).loc main_arg2)) ⟨t.val / 32, he⟩ (row ⟨t.val / 8 % 4, hs⟩ p) q
  have same : ∀ (u : ℕ) (hu : u < cfg0.N), u = t.val → (outsAt0 m c u hu).2 = (outsAt0 m c t.val t.isLt).2 :=
    fun u hu h => by subst h; rfl
  rw [← same _ (lt_of_eq_of_lt ht.symm t.isLt) ht.symm]
  exact entry_last m c ⟨t.val / 32, he⟩ ⟨t.val / 8 % 4, hs⟩ p q _

/-- An entry of the array is in point `t`'s block iff each coordinate is in the block's range on its axis. -/
theorem mem_blk (t : Fin cfg0.N) (i : S8x4096x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_call0_v0).slice (win0_3.rect t)).set ↔ _
  rw [View.set_slice_whole, Rect.mem_set_unit]
  exact Iff.rfl

/-- Every entry `(e, r, d)` is in the block written back at the last point of the run of expert `e` and row tile
    `r / 1024`. -/
theorem covered (i : S8x4096x1024.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have hlt : (i 0).val * 32 + (i 1).val / 1024 * 8 + 7 < cfg0.N := lt_of_lt_of_eq (by omega) N_0.symm
  obtain ⟨-, -, -, -, -, -, -, -, -, a0, a1, a2⟩ := idx_facts ⟨(i 0).val * 32 + (i 1).val / 1024 * 8 + 7, hlt⟩
  refine ⟨⟨(i 0).val * 32 + (i 1).val / 1024 * 8 + 7, hlt⟩, (flush0_3 _).mpr ?_, ?_⟩
  · show ((i 0).val * 32 + (i 1).val / 1024 * 8 + 7) % 8 = 7
    omega
  · rw [mem_blk]
    intro a
    match a with
    | ⟨0, _⟩ =>
      show win0_3.index _ (0 : Fin 3) * 1 ≤ (i 0).val ∧ (i 0).val < win0_3.index _ (0 : Fin 3) * 1 + 1
      rw [a0]
      show ((i 0).val * 32 + (i 1).val / 1024 * 8 + 7) / 32 * 1 ≤ (i 0).val ∧ (i 0).val < ((i 0).val * 32 + (i 1).val / 1024 * 8 + 7) / 32 * 1 + 1
      omega
    | ⟨1, _⟩ =>
      show win0_3.index _ (1 : Fin 3) * 1024 ≤ (i 1).val ∧ (i 1).val < win0_3.index _ (1 : Fin 3) * 1024 + 1024
      rw [a1]
      show ((i 0).val * 32 + (i 1).val / 1024 * 8 + 7) / 8 % 4 * 1024 ≤ (i 1).val ∧ (i 1).val < ((i 0).val * 32 + (i 1).val / 1024 * 8 + 7) / 8 % 4 * 1024 + 1024
      omega
    | ⟨2, _⟩ =>
      show win0_3.index _ (2 : Fin 3) * 1024 ≤ (i 2).val ∧ (i 2).val < win0_3.index _ (2 : Fin 3) * 1024 + 1024
      rw [a2]
      omega

/-- After the region the output array is the layer's output array. -/
theorem array_eq (c : Dev nD) : (dats m 0 c).arrAt 3 cfg0.N = (ffn (m ((c.tc : Thread nD τ).loc main_arg0)) (m ((c.tc : Thread nD τ).loc main_arg1)) (m ((c.tc : Thread nD τ).loc main_arg2))) :=
  (dats m 0 c).arrAt_eq_of_cover 3 (ffn (m ((c.tc : Thread nD τ).loc main_arg0)) (m ((c.tc : Thread nD τ).loc main_arg1)) (m ((c.tc : Thread nD τ).loc main_arg2))) (flushed_eq m c) covered

/-- The line after the region reshapes it to 32768 rows. -/
theorem tail_eq (c : Dev nD) :
    Pipeline.afterTail₀ cfgs (dats m) 0 (V0 m) [hostOps1] c main_v0
      = shapeCast S32768x1024 (ffn (m ((c.tc : Thread nD τ).loc main_arg0)) (m ((c.tc : Thread nD τ).loc main_arg1)) (m ((c.tc : Thread nD τ).loc main_arg2))) shapeCasts_S8x4096x1024_S32768x1024 := by
  unfold Pipeline.afterTail₀
  show StableHlo.after hostOps1 _ (Proc.devRef .tc main_v0) = _
  after_results
  refine Eq.trans ?_ (congrArg (fun A : S8x4096x1024.Idx → EReal => shapeCast S32768x1024 A shapeCasts_S8x4096x1024_S32768x1024)
    ((Pipeline.withArrays_arr spec0 launch0.win.arr_inj c (V0 m c) (fun w => (dats m 0 c).arrAt w cfg0.N) 3).trans (array_eq m c)))
  rfl

/-- The kernel's run, read: every weakly fair execution ends with the result at the layer's output array reshaped
    to 32768 rows, and the three arguments as they were. -/
theorem run : θ_run defs (onTc (τ := τ) (main (F := Ideal))) ⟨m, fun _ => 0, ρ⟩ fun r => ∀ c : Dev nD,
      r.2.mem ((c.tc : Thread nD τ).loc main_v0)
        = shapeCast S32768x1024 (ffn (m ((c.tc : Thread nD τ).loc main_arg0)) (m ((c.tc : Thread nD τ).loc main_arg1)) (m ((c.tc : Thread nD τ).loc main_arg2))) shapeCasts_S8x4096x1024_S32768x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v0 (Pipeline.mem_restRefs_of main_v0 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Result

end
-- ==== Proof.RefSpec.lean ====
/-
  The reference computes the layer.

  Its two batched products are, entry by entry, the sums over the contracted axis; the maximum with the zero
  splat between them is `max(·, 0)`. So its second product, before the final reshape, is the layer's output
  array.
-/
import proofs.«159526_j69965017252292_1_alg».proof.Proof.Gen.ReferenceIdeal.Read
import proofs.«159526_j69965017252292_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec

/-- The second product's operands at output `(e, r, d)` and hidden unit `f`: the hidden activations at `(e, r, f)` … -/
theorem lidx2 (e : Fin 8) (r : Fin 4096) (d : Fin 1024) (f : Fin 4096) : lidx_main_v2 (ix3 e r d) f = ix3 e r f :=
  funext fun a => by match a with | ⟨0, _⟩ => rfl | ⟨1, _⟩ => rfl | ⟨2, _⟩ => rfl
/-- … and the second weights at `(e, f, d)`. -/
theorem ridx2 (e : Fin 8) (r : Fin 4096) (d : Fin 1024) (f : Fin 4096) : ridx_main_v2 (ix3 e r d) f = ix3 e f d :=
  funext fun a => by match a with | ⟨0, _⟩ => rfl | ⟨1, _⟩ => rfl | ⟨2, _⟩ => rfl
/-- The first product's operands at `(e, r, f)` and `k`: the rows at `(e, r, k)` … -/
theorem lidx0 (e : Fin 8) (r f : Fin 4096) (k : Fin 1024) : lidx_main_v0 (ix3 e r f) k = ix3 e r k :=
  funext fun a => by match a with | ⟨0, _⟩ => rfl | ⟨1, _⟩ => rfl | ⟨2, _⟩ => rfl
/-- … and the first weights at `(e, k, f)`. -/
theorem ridx0 (e : Fin 8) (r f : Fin 4096) (k : Fin 1024) : ridx_main_v0 (ix3 e r f) k = ix3 e k f :=
  funext fun a => by match a with | ⟨0, _⟩ => rfl | ⟨1, _⟩ => rfl | ⟨2, _⟩ => rfl

/-- The hidden activations are `max(x · wi, 0)`, entry by entry. -/
theorem hidden_eq (x : Rows) (wi : Cols) (e : Fin 8) (r f : Fin 4096) :
    val_main_v1 (F := Ideal) x wi (ix3 e r f) = Cert.Spec.hidden x wi e r f := by
  rw [val_main_v1_apply, val_main_v0_apply, val_main_call0_v0_apply, val_main_call0_cst_apply]
  unfold Cert.Spec.hidden relu
  refine congrArg (fun v => max v (Ideal.ofBits .f32 0x00000000#32)) (Finset.sum_congr rfl fun k _ => ?_)
  rw [lidx0, ridx0]

/-- The reference's second product is the layer's output array. -/
theorem second_product_eq (x : Rows) (wi : Cols) (wo : Rows) : val_main_v2 (F := Ideal) x wi wo = ffn x wi wo := by
  funext i
  obtain ⟨e, r, d, rfl⟩ : ∃ (e : Fin 8) (r : Fin 4096) (d : Fin 1024), i = ix3 e r d := ⟨i 0, i 1, i 2, eq_ix3 i⟩
  rw [val_main_v2_apply]
  show _ = ffnAt x wi wo e r d
  unfold ffnAt
  refine Finset.sum_congr rfl fun f _ => ?_
  rw [lidx2, ridx2, hidden_eq]

/-- The reference's result: the layer's output array reshaped to 32768 rows. -/
theorem result_eq (x : Rows) (wi : Cols) (wo : Rows) :
    val_main_v3 (F := Ideal) x wi wo = shapeCast S32768x1024 (ffn x wi wo) shapeCasts_S8x4096x1024_S32768x1024 := by
  unfold val_main_v3
  rw [second_product_eq]

end Cert.ReferenceIdeal.RefValue

end
-- ==== Proof.lean ====
/-
  A grouped feed-forward layer, kernel against reference, over the extended reals.

  Eight experts; expert `e` sends each of its 4096 rows `x[e, r, ·]` (width 1024) to

      out[e, r, d] = ∑_{f < 4096} max(∑_{k < 1024} x[e, r, k] · wi[e, k, f], 0) · wo[e, f, d],

  and the [8, 4096, 1024] result is reshaped to 32768 rows.

  The reference computes this with two batched matrix products and a maximum with zero between them. The kernel
  walks a grid of 8 experts × 4 row tiles × 8 hidden blocks: for one expert and one tile of 1024 rows it keeps a
  1024 × 1024 accumulator, zeroes it at the first hidden block, adds at each hidden block `b` the product of
  `max(X · wi[e, ·, 512 b … 512 b + 511], 0)` with `wo[e, 512 b … 512 b + 511, ·]`, and writes the accumulator out
  after the eighth. Its narrowing of the operands to bf16 is the identity on the extended reals. So the kernel
  sums the 4096 hidden units 512 at a time, starting from zero, where the reference sums them at once: the two
  agree because addition of extended reals is associative and commutative and `0 + a = a` — no distributivity or
  cancellation is used, so the claim holds at infinite inputs too, and the precondition is never opened.

  The specification is `Cert.Spec.ffn` (Spec.lean). The kernel's side: what a grid point leaves (Pieces.lean), the
  body's arithmetic at an entry (Payload.lean), which entries of the arrays a point reads (Blocks.lean), the
  accumulator over a run of 8 points (Accum.lean), the result array and the reshape after the region
  (Result.lean). The reference's side: RefSpec.lean. The idealized kernel is the kernel's own text read over the
  extended reals, so the claim relating the two is `True`.
-/
import proofs.«159526_j69965017252292_1_alg».proof.Defs
import proofs.«159526_j69965017252292_1_alg».proof.Proof.Gen.Kernel
import proofs.«159526_j69965017252292_1_alg».proof.Proof.Gen.Kernel.Skeleton
import proofs.«159526_j69965017252292_1_alg».proof.Proof.Gen.Kernel.Launch
import proofs.«159526_j69965017252292_1_alg».proof.Proof.Gen.Kernel.Points
import proofs.«159526_j69965017252292_1_alg».proof.Proof.Gen.Kernel.Frame
import proofs.«159526_j69965017252292_1_alg».proof.Proof.Gen.KernelIdeal
import proofs.«159526_j69965017252292_1_alg».proof.Proof.Gen.KernelIdeal.Skeleton
import proofs.«159526_j69965017252292_1_alg».proof.Proof.Gen.KernelIdeal.Launch
import proofs.«159526_j69965017252292_1_alg».proof.Proof.Gen.KernelIdeal.Points
import proofs.«159526_j69965017252292_1_alg».proof.Proof.Gen.KernelIdeal.Frame
import proofs.«159526_j69965017252292_1_alg».proof.Proof.Gen.ReferenceIdeal
import proofs.«159526_j69965017252292_1_alg».proof.Proof.Gen.Pre_finite_inputs
import proofs.«159526_j69965017252292_1_alg».proof.Proof.Gen.ReferenceIdeal.Run
import proofs.«159526_j69965017252292_1_alg».proof.Proof.Gen.ReferenceIdeal.Read
import proofs.«159526_j69965017252292_1_alg».proof.Proof.Spec
import proofs.«159526_j69965017252292_1_alg».proof.Proof.Result
import proofs.«159526_j69965017252292_1_alg».proof.Proof.RefSpec
import Idealize.ShloMosaic.Adequacy
import Idealize.ShloMosaic.Init

noncomputable section

namespace Cert.Proof

open Idealize.ShloMosaic Idealize.SL.Sem

/-- The kernel as printed runs, faults nowhere and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing to relate. -/
theorem preserves : Cert.preserves_Kernel_KernelIdeal := trivial

/-- From memories that agree on the three arguments both programs end with the layer's output array, reshaped to
    32768 rows, in their result buffers. -/
theorem algebraic : Cert.algebraic_KernelIdeal_ReferenceIdeal := by
  intro m ρ m' ρ' _ hagree
  refine ⟨fun c => shapeCast Cert.KernelIdeal.S32768x1024
      (Cert.Spec.ffn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      Cert.KernelIdeal.Gen.shapeCasts_S8x4096x1024_S32768x1024,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
